-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x1024 : Shape := ⟨3, ![32, 16, 1024]⟩
abbrev S32x1024x512 : Shape := ⟨3, ![32, 1024, 512]⟩
abbrev S_ : Shape := ⟨0, ![]⟩

class Facts : Prop where
  bcast_S_S32x16x1024 : S_.BroadcastsInDim S32x16x1024 (![] : Fin 0 → Fin S32x16x1024.rank)
  reducesTo_S32x16x1024_S_d0_1_2 : S32x16x1024.ReducesTo [0, 1, 2] S_
  h_S_ : 0 < S_.numel
  bcast_S_S32x1024x512 : S_.BroadcastsInDim S32x1024x512 (![] : Fin 0 → Fin S32x1024x512.rank)
  reducesTo_S32x1024x512_S_d0_1_2 : S32x1024x512.ReducesTo [0, 1, 2] S_

variable [Facts]

def fn {F : FTy → Type} [FloatOps F] (main_arg0 : FVec F S32x16x1024 .f32) (main_arg1 : FVec F S32x1024x512 .f32) : IVec S_ 1 :=
  let main_v0 : FVec F S32x16x1024 .f32 := Host.absf main_arg0
  let main_cst : FVec F S_ .f32 := constant S_ .f32 0x7F800000#32
  let main_v1 : FVec F S32x16x1024 .f32 := broadcastInDim S32x16x1024 ![] bcast_S_S32x16x1024 main_cst
  let main_v2 : IVec S32x16x1024 1 := cmpf .olt main_v0 main_v1
  let main_c : IVec S_ 1 := constantI S_ 1 1#1
  let main_v3 : IVec S_ 1 := (fun x v => Host.reduce IntOp.andi x v reducesTo_S32x16x1024_S_d0_1_2 h_S_) main_v2 main_c
  let main_v4 : FVec F S32x1024x512 .f32 := Host.absf main_arg1
  let main_cst_0 : FVec F S_ .f32 := constant S_ .f32 0x7F800000#32
  let main_v5 : FVec F S32x1024x512 .f32 := broadcastInDim S32x1024x512 ![] bcast_S_S32x1024x512 main_cst_0
  let main_v6 : IVec S32x1024x512 1 := cmpf .olt main_v4 main_v5
  let main_c_1 : IVec S_ 1 := constantI S_ 1 1#1
  let main_v7 : IVec S_ 1 := (fun x v => Host.reduce IntOp.andi x v reducesTo_S32x1024x512_S_d0_1_2 h_S_) main_v6 main_c_1
  let main_v8 : IVec S_ 1 := andi main_v3 main_v7
  main_v8
-- ==== Kernel.lean ====
abbrev S32x16x1024 : Shape := ⟨3, ![32, 16, 1024]⟩
abbrev S32x1024x512 : Shape := ⟨3, ![32, 1024, 512]⟩
abbrev S2x16x1024 : Shape := ⟨3, ![2, 16, 1024]⟩
abbrev S2x1024x512 : Shape := ⟨3, ![2, 1024, 512]⟩
abbrev S2x1024 : Shape := ⟨2, ![2, 1024]⟩
abbrev S2x1024x1 : Shape := ⟨3, ![2, 1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x16x1024, .f32⟩
  | .hbm, ⟨1, _⟩ => ⟨S32x1024x512, .f32⟩
  | .hbm, ⟨2, _⟩ => ⟨S32x1024x512, .f32⟩
  | .local _ .vmem, ⟨0, _⟩ => ⟨S2x16x1024, .f32⟩
  | .local _ .vmem, ⟨1, _⟩ => ⟨S2x16x1024, .f32⟩
  | .local _ .vmem, ⟨2, _⟩ => ⟨S2x1024x512, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x16x1024_S2x16x1024_0_0_0 : ∀ a, (![0, 0, 0] : Fin 3 → Nat) a + S2x16x1024.size a ≤ S2x16x1024.size a
  h_S2x16x1024 : 0 < S2x16x1024.numel
  reduces_S2x16x1024_S2x1024 : S2x16x1024.Reduces [1] S2x1024
  inb_S2x1024x512_S2x1024x512_0_0_0 : ∀ a, (![0, 0, 0] : Fin 3 → Nat) a + S2x1024x512.size a ≤ S2x1024x512.size a
  h_S2x1024x512 : 0 < S2x1024x512.numel
  shapeCasts_S2x1024_S2x1024x1 : S2x1024.ShapeCasts S2x1024x1
  broadcasts_S2x1024x1_S2x1024x512 : S2x1024x1.Broadcasts S2x1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x1024.size a ≤ S32x16x1024.size a
  hwx0_0 : ∀ i : grid0.Coords, EltTy.bits .f32 = 32 ∨ (Rect.block (s := S32x16x1024) S2x16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x512.size a ≤ S32x1024x512.size a
  hwx0_1 : ∀ i : grid0.Coords, EltTy.bits .f32 = 32 ∨ (Rect.block (s := S32x1024x512) S2x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x512.size a ≤ S32x1024x512.size a
  hwx0_2 : ∀ i : grid0.Coords, EltTy.bits .f32 = 32 ∨ (Rect.block (s := S32x1024x512) S2x1024x512.size (cc0_transform_2 i) (hinb0_2 i)).WholeWords (EltTy.packing .f32)

variable [Facts₀]

abbrev win0_0 : Pipeline.Window sig grid0 :=
  Pipeline.Window.ofSpec (Memref.whole main_arg0) S2x16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x16x1024 : Shape := ⟨3, ![32, 16, 1024]⟩
abbrev S32x1024x512 : Shape := ⟨3, ![32, 1024, 512]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 10
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x1024x512, .f32⟩
  | .hbm, ⟨2, _⟩ => ⟨S_, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S32x1024x1, .f32⟩
  | .hbm, ⟨8, _⟩ => ⟨S32x1024x512, .f32⟩
  | .hbm, ⟨9, _⟩ => ⟨S32x1024x512, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S32x16x1024_S32x1024_d1 : S32x16x1024.ReducesTo [1] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x512_0_1_2 : S32x1024x1.BroadcastsInDim S32x1024x512 (![0, 1, 2] : Fin 3 → Fin S32x1024x512.rank)

variable [Facts₀]

class Facts : Prop extends Facts₀ where

variable [Facts]
-- ==== Proof.Pooled.lean ====
/-
  Weighted feature pooling, as one function of the two argument arrays.

  `task` is a [32, 16, 1024] array and `feat` a [32, 1024, 512] array.  For every batch entry `n` and position `p` the
  sixteen task weights `task[n, 0, p], …, task[n, 15, p]` are averaged — their sum divided by sixteen — and every one of
  the 512 features at `(n, p)` is multiplied by that average:

      pooled task feat (n, p, d) = feat (n, p, d) · ((∑ k < 16, task (n, k, p)) / 16).

  The divisor is kept as the f32 word of 16 (both programs carry the same word, so it is never evaluated), and the
  quotient is the extended reals' `Ideal.div`.  Nothing here needs the entries to be finite: the two programs are
  compared term by term, and the only arithmetic fact used is that zero is neutral for the sum.
-/
import Idealize.ShloMosaic.PureOps.Ideal
import Idealize.ShloMosaic.Lib.ValueIdx

noncomputable section

open scoped BigOperators

namespace Cert.Pooling

open Idealize.ShloMosaic Idealize.ShloMosaic.ValueIdx

/-- The task entry `(n, k, p)` that the output entry `i = (n, p, d)` takes as its `k`-th summand: the batch
    coordinate and the position of `i`, with `k` on the averaged axis; the feature coordinate `d` plays no part. -/
abbrev taskAt (i : (⟨3, ![32, 1024, 512]⟩ : Shape).Idx) (k : Fin 16) : (⟨3, ![32, 16, 1024]⟩ : Shape).Idx :=
  ix3 (⟨(i 0).val, (i 0).isLt⟩ : Fin 32) k (⟨(i 1).val, (i 1).isLt⟩ : Fin 1024)

/-- The pooled array: each feature times the mean of the sixteen task weights at its batch entry and position. -/
def pooled (task : (⟨3, ![32, 16, 1024]⟩ : Shape).Idx → EReal) (feat : (⟨3, ![32, 1024, 512]⟩ : Shape).Idx → EReal) :
    (⟨3, ![32, 1024, 512]⟩ : Shape).Idx → EReal :=
  fun i => feat i * Ideal.div (∑ k : Fin 16, task (taskAt i k)) (Ideal.ofBits .f32 0x41800000#32)

end Cert.Pooling

end
-- ==== Proof.ReferencePooled.lean ====
/-
  The reference program computes the pooled array.

  Its eight host operations are: the zero word; the sum of `task` over its middle axis started from that zero; the
  word of 16 spread over a [32, 1024] array; the quotient; two steps that spread the [32, 1024] means along a new last
  axis of extent 512; and the product with `feat`.  Read at an output index `i = (n, p, d)`, the chain of index maps
  of the two spreading steps and of the sum lands on the task entry `(n, k, p)`, so the result is
  `feat i · ((0 + ∑ k, task (n, k, p)) / 16)`, and the zero drops out.
-/
import proofs.«116992_j20023137534634_2_alg».proof.Proof.Gen.ReferenceIdeal.Read
import proofs.«116992_j20023137534634_2_alg».proof.Proof.Pooled

noncomputable section

open scoped BigOperators

namespace Cert.Pooling.Reference

open Cert.ReferenceIdeal Cert.ReferenceIdeal.Read Idealize.ShloMosaic Idealize.ShloMosaic.ValueIdx Cert.Pooling

/-- Through the two spreading steps and the sum, output index `(n, p, d)` and summand `k` name task entry `(n, k, p)`. -/
theorem summand_index (i : S32x1024x512.Idx) (k : Fin 16) :
    idx_main_v0 (idx_main_v3 (idx_main_v4 i)) k = taskAt i k :=
  funext fun a => Fin.ext (by match a with | ⟨0, _⟩ => rfl | ⟨1, _⟩ => rfl | ⟨2, _⟩ => rfl)

/-- The reference's last stage is the pooled array of its two arguments. -/
theorem stage_eq_pooled (task : (⟨S32x16x1024, .f32⟩ : BufTy).Contents (Elt Ideal))
    (feat : (⟨S32x1024x512, .f32⟩ : BufTy).Contents (Elt Ideal)) :
    val_main_v5 (F := Ideal) task feat = pooled task feat := by
  funext i
  rw [val_main_v5_apply, val_main_v4_apply, val_main_v3_apply, val_main_v2_apply, val_main_v0_apply, val_main_v1_apply,
    val_main_cst_0_apply, val_main_cst_apply]
  simp only [Ideal.mulf_def, Ideal.hostDivf_def, Ideal.ofBits_def, Ideal.ofBits_zero_f32, zero_add, summand_index]
  rfl

end Cert.Pooling.Reference

end
-- ==== Proof.BlockPooled.lean ====
/-
  What one grid step leaves in its output block.

  A step holds a [2, 16, 1024] block `x0` of the task array and a [2, 1024, 512] block `x1` of the feature array.  It
  sums `x0` over its middle axis, divides by sixteen, spreads the [2, 1024] means along a last axis of extent 512 and
  multiplies by `x1`; the one store covers the whole output block.  So at block index `(b, p, d)` the block holds
  `x1 (b, p, d) · ((∑ k < 16, x0 (b, k, p)) / 16)`: the same formula as the pooled array, one block at a time.
  The sum over the middle axis, started from the zero word, is at the extended reals the plain sum of the sixteen
  entries.
-/
import proofs.«116992_j20023137534634_2_alg».proof.Proof.Gen.KernelIdeal.Value
import Idealize.ShloMosaic.Lib.ValueIdx
import Idealize.ShloMosaic.PureOps.Ideal.Laws

noncomputable section

open scoped BigOperators

namespace Cert.Pooling.Block

open Cert.KernelIdeal Cert.KernelIdeal.Gen Idealize.ShloMosaic Idealize.ShloMosaic.ValueIdx

/-- The block's offsets are all zero. -/
theorem zero_offsets : (![0, 0, 0] : Fin 3 → Nat) = fun _ => 0 := funext fun a => by fin_cases a <;> rfl

/-- The entry `(b, k, p)` of the task block that block index `y = (b, p, d)` takes as its `k`-th summand. -/
abbrev blockTaskAt (y : S2x1024x512.Idx) (k : Fin 16) : S2x16x1024.Idx :=
  ix3 (⟨(y 0).val, (y 0).isLt⟩ : Fin 2) k (⟨(y 1).val, (y 1).isLt⟩ : Fin 1024)

/-- The sum of a [2, 16, 1024] block over its middle axis, from the zero word, at `(b, p)`: the sixteen entries
    `(b, k, p)` added up. -/
theorem middle_sum (x0 : Vec Ideal S2x16x1024 .f32) (y : S2x1024x512.Idx) :
    (multiReduction (F := Ideal) .add [1] S2x1024 x0 0x00000000#32 reduces_S2x16x1024_S2x1024 (.inl rfl) rfl) (Value.ix2_1 y)
      = ∑ k : Fin 16, x0 (blockTaskAt y k) := by
  refine (Ideal.multiReduction_add_single x0 0x00000000#32 reduces_S2x16x1024_S2x1024 (.inl rfl) rfl (Value.ix2_1 y)).trans ?_
  refine Finset.sum_congr rfl fun k _ => ?_
  exact congrArg x0 (funext fun a => Fin.ext (by match a with | ⟨0, _⟩ => rfl | ⟨1, _⟩ => rfl | ⟨2, _⟩ => rfl))

/-- The output block of one step, entry by entry: the feature entry times the mean of the sixteen task entries above it. -/
theorem block_entry (x0 : Vec Ideal S2x16x1024 .f32) (x1 : Vec Ideal S2x1024x512 .f32) (y : S2x1024x512.Idx) :
    out0_2 (F := Ideal) x0 x1 y
      = x1 y * Ideal.div (∑ k : Fin 16, x0 (blockTaskAt y k)) (Ideal.ofBits .f32 0x41800000#32) := by
  unfold out0_2
  rw [Value.canon2_eq, View.ld_unit_zero (S := S2x16x1024) zero_offsets, View.ld_unit_zero (S := S2x1024x512) zero_offsets]
  show x1 (Value.ix2_0 y) * Ideal.div ((multiReduction (F := Ideal) .add [1] S2x1024 x0 0x00000000#32
      reduces_S2x16x1024_S2x1024 (.inl rfl) rfl) (Value.ix2_1 y)) (Ideal.ofBits .f32 0x41800000#32) = _
  rw [middle_sum]
  have hy : Value.ix2_0 y = y :=
    funext fun a => Fin.ext (by match a with | ⟨0, _⟩ => rfl | ⟨1, _⟩ => rfl | ⟨2, _⟩ => rfl)
  rw [hy]

end Cert.Pooling.Block

end
-- ==== Proof.KernelPooled.lean ====
/-
  The kernel's output array is the pooled array.

  The grid has sixteen steps.  Step `t` takes rows `2t, 2t+1` along the batch axis of all three arrays and the
  whole of the other two axes: block `t` of the task array is [2, 16, 1024], block `t` of the feature and of the
  output array is [2, 1024, 512].  An entry of a block sits in its array at block index × block extent + its own
  coordinate, axis by axis.  So the block that step `t` writes back — the feature block times the mean of the task
  block over its middle axis — is block `t` of the pooled array of the two whole argument arrays: the summand
  `(b, k, p)` of the task block is the summand `(2t + b, k, p)` of the array.  The sixteen output blocks tile the
  batch axis (row `r` lies in block `r / 2`), so after the last step the whole output array is the pooled array.
-/
import proofs.«116992_j20023137534634_2_alg».proof.Proof.Gen.KernelIdeal.Value
import proofs.«116992_j20023137534634_2_alg».proof.Proof.Pooled
import proofs.«116992_j20023137534634_2_alg».proof.Proof.BlockPooled

noncomputable section

open scoped BigOperators

namespace Cert.Pooling.Kernel

open Cert.KernelIdeal Cert.KernelIdeal.Gen Idealize.ShloMosaic Idealize.ShloMosaic.TcCoe Idealize.SL.Sem
open Idealize.ShloMosaic.ValueIdx Cert.Pooling
open Idealize.ShloMosaic.Pipeline (Dat)

variable (m : (ℓ : Loc nD τ sig) → Buf (Elt Ideal) ℓ) (ρ : Dev nD → PrngReg)

/-- The three index maps, decided over the sixteen steps: each window's block index at step `t` is `t` along the
    batch axis and zero along the other two. -/
theorem block_indices : ∀ t : Fin cfg0.N,
    win0_2.index t (0 : Fin 3) = t.val ∧ win0_2.index t (1 : Fin 3) = 0 ∧ win0_2.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A block of the pooled array.  Let the task block `x0` and the feature block `x1` be the arrays `task` and `feat`
    read along placements `e0`, `e1` of block indices in the arrays, and let `e2` place the output block.  If at block
    index `j` the feature placement agrees with the output's, and the `k`-th task summand of `j` is placed on the
    `k`-th task summand of the output entry, then the step's output at `j` is the pooled array at `e2 j`. -/
theorem block_of_pooled (task : S32x16x1024.Idx → EReal) (feat : S32x1024x512.Idx → EReal)
    (x0 : Vec Ideal S2x16x1024 .f32) (x1 : Vec Ideal S2x1024x512 .f32)
    (e0 : S2x16x1024.Idx → S32x16x1024.Idx) (e1 e2 : S2x1024x512.Idx → S32x1024x512.Idx)
    (hx0 : ∀ y, x0 y = task (e0 y)) (hx1 : ∀ y, x1 y = feat (e1 y)) (j : S2x1024x512.Idx)
    (h1 : e1 j = e2 j) (h0 : ∀ k : Fin 16, e0 (Block.blockTaskAt j k) = taskAt (e2 j) k) :
    out0_2 (F := Ideal) x0 x1 j = pooled task feat (e2 j) := by
  rw [Block.block_entry, hx1, h1]
  unfold pooled
  simp only [hx0, h0]

/-- What step `t` writes back is block `t` of the pooled array of the two argument arrays. -/
theorem flushed_eq (c : Dev nD) (t : Fin cfg0.N) :
    (dats m 0 c).flushed 2 t
      = ((cfg0.win 2).blk t).view.read (Elt Ideal) (pooled (V m c main_arg0) (V m c main_arg1)) := by
  rw [Value.flushed2]
  obtain ⟨o0, o1, o2, a0, a1, a2, b0, b1, b2⟩ := block_indices t
  funext j
  have h1 : ((cfg0.win 1).blk t).view.emb j = ((cfg0.win 2).blk t).view.emb j := by
    funext a; apply Fin.ext
    match a with
    | ⟨0, _⟩ => show win0_1.index t (0 : Fin 3) * 2 + 1 * (j 0).val = win0_2.index t (0 : Fin 3) * 2 + 1 * (j 0).val; omega
    | ⟨1, _⟩ => show win0_1.index t (1 : Fin 3) * 1024 + 1 * (j 1).val = win0_2.index t (1 : Fin 3) * 1024 + 1 * (j 1).val; omega
    | ⟨2, _⟩ => show win0_1.index t (2 : Fin 3) * 512 + 1 * (j 2).val = win0_2.index t (2 : Fin 3) * 512 + 1 * (j 2).val; omega
  have h0 : ∀ k : Fin 16, ((cfg0.win 0).blk t).view.emb (Block.blockTaskAt j k)
      = taskAt (((cfg0.win 2).blk t).view.emb j) k := by
    intro k; funext a; apply Fin.ext
    match a with
    | ⟨0, _⟩ => show win0_0.index t (0 : Fin 3) * 2 + 1 * (j 0).val = win0_2.index t (0 : Fin 3) * 2 + 1 * (j 0).val; omega
    | ⟨1, _⟩ => show win0_0.index t (1 : Fin 3) * 16 + 1 * k.val = k.val; omega
    | ⟨2, _⟩ => show win0_0.index t (2 : Fin 3) * 1024 + 1 * (j 1).val = win0_2.index t (1 : Fin 3) * 1024 + 1 * (j 1).val; omega
  exact block_of_pooled (V m c main_arg0) (V m c main_arg1) (iblk m c 0 t) (iblk m c 1 t)
    ((cfg0.win 0).blk t).view.emb ((cfg0.win 1).blk t).view.emb ((cfg0.win 2).blk t).view.emb
    (fun _ => rfl) (fun _ => rfl) j h1 h0

/-- An entry of the output array lies in step `t`'s block iff each coordinate lies in the block's range on its axis. -/
theorem mem_block (t : Fin cfg0.N) (i : S32x1024x512.Idx) :
    i ∈ ((cfg0.win 2).blk t).view.set ↔ ∀ a : Fin 3, win0_2.index t a * S2x1024x512.size a ≤ (i a).val
      ∧ (i a).val < win0_2.index t a * S2x1024x512.size a + S2x1024x512.size a := by
  show i ∈ ((View.whole main_v0).slice (win0_2.rect t)).set ↔ _
  rw [View.set_slice_whole, Rect.mem_set_unit]
  exact Iff.rfl

/-- The sixteen blocks cover the output array: the entry in batch row `r` lies in the block of step `r / 2`. -/
theorem covered (i : S32x1024x512.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 512 := (i 2).isLt
  have hN : cfg0.N = 16 := N_0
  obtain ⟨t, ht⟩ : ∃ t : Fin cfg0.N, t.val = (i 0).val / 2 :=
    ⟨⟨(i 0).val / 2, Nat.lt_of_lt_of_eq (by omega) hN.symm⟩, rfl⟩
  obtain ⟨o0, o1, o2, -⟩ := block_indices t
  refine ⟨t, flush0_2 t, ?_⟩
  rw [mem_block]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

/-- After the sixteen steps the output array is the pooled array of the two argument arrays. -/
theorem final_array (c : Dev nD) :
    (dats m 0 c).arrAt 2 cfg0.N
      = pooled (m ((c : Thread nD τ).loc main_arg0)) (m ((c : Thread nD τ).loc main_arg1)) :=
  (dats m 0 c).arrAt_eq_of_cover 2 (pooled (V m c main_arg0) (V m c main_arg1)) (fun t _ => flushed_eq m c t) covered

/-- Every weakly fair execution of the kernel's program ends with the output array at the pooled array of the
    arguments and the arguments unchanged. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩) (Value.run_blocks m ρ)

end Cert.Pooling.Kernel

end
-- ==== Proof.lean ====
/-
  Weighted feature pooling: a kernel against its plain reference, at the extended reals.

  Both programs take `task` of shape [32, 16, 1024] and `feat` of shape [32, 1024, 512] and return, at `(n, p, d)`,
  `feat (n, p, d) · ((∑ k < 16, task (n, k, p)) / 16)`: each feature times the mean of the sixteen task weights at its
  batch entry and position (`Cert.Pooling.pooled`).  The reference does it in eight whole-array steps; the kernel in
  sixteen grid steps of two batch rows each, every step summing its task block over the middle axis, dividing by
  sixteen and multiplying into its feature block.  The two agree term by term — the same sum of the same sixteen
  entries, the same divisor, the same product — so no finiteness of the inputs is used; the only arithmetic fact is
  that the reference's explicit zero start of the sum is neutral.

  The three runs: the kernel's frame at both instances is the generated one; the reference's frame is its run with the
  result dropped.  No operation was rewritten on the way to the idealized kernel, so that claim is trivial.  For the
  value claim the kernel's run ends with the output at the pooled array (the sixteen written blocks are the blocks of
  the pooled array and tile it), and the reference's run ends at its last stage, which read index by index is the
  pooled array of its own arguments; these agree with the kernel's by hypothesis.
-/
import proofs.«116992_j20023137534634_2_alg».proof.Defs
import proofs.«116992_j20023137534634_2_alg».proof.Proof.Gen.Kernel
import proofs.«116992_j20023137534634_2_alg».proof.Proof.Gen.Kernel.Skeleton
import proofs.«116992_j20023137534634_2_alg».proof.Proof.Gen.Kernel.Launch
import proofs.«116992_j20023137534634_2_alg».proof.Proof.Gen.Kernel.Points
import proofs.«116992_j20023137534634_2_alg».proof.Proof.Gen.Kernel.Frame
import proofs.«116992_j20023137534634_2_alg».proof.Proof.Gen.KernelIdeal
import proofs.«116992_j20023137534634_2_alg».proof.Proof.Gen.KernelIdeal.Skeleton
import proofs.«116992_j20023137534634_2_alg».proof.Proof.Gen.KernelIdeal.Launch
import proofs.«116992_j20023137534634_2_alg».proof.Proof.Gen.KernelIdeal.Points
import proofs.«116992_j20023137534634_2_alg».proof.Proof.Gen.KernelIdeal.Frame
import proofs.«116992_j20023137534634_2_alg».proof.Proof.Gen.ReferenceIdeal
import proofs.«116992_j20023137534634_2_alg».proof.Proof.Gen.Pre_finite_inputs
import proofs.«116992_j20023137534634_2_alg».proof.Proof.Gen.KernelIdeal.Value
import proofs.«116992_j20023137534634_2_alg».proof.Proof.Gen.ReferenceIdeal.Run
import proofs.«116992_j20023137534634_2_alg».proof.Proof.Gen.ReferenceIdeal.Read
import proofs.«116992_j20023137534634_2_alg».proof.Proof.Pooled
import proofs.«116992_j20023137534634_2_alg».proof.Proof.ReferencePooled
import proofs.«116992_j20023137534634_2_alg».proof.Proof.KernelPooled
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `task` and `feat`, both programs end with the pooled array of those two arrays. -/
theorem algebraic : Cert.algebraic_KernelIdeal_ReferenceIdeal := by
  intro m ρ m' ρ' _ hagree
  refine ⟨_, Cert.Pooling.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Pooling.Reference.stage_eq_pooled, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
